-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S8x4096x512 : Shape := ⟨3, ![8, 4096, 512]⟩
abbrev S8x4096x1024 : Shape := ⟨3, ![8, 4096, 1024]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : IVec S128 32) (main_arg1 : FVec F S8x4096x512 .f32) (main_arg2 : FVec F S8x4096x1024 .f32) : IVec S_ 1 :=
  let main_v0 : FVec F S8x4096x512 .f32 := Host.absf main_arg1
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x1024 .f32 := Host.absf main_arg2
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  main_v8
-- ==== Kernel.lean ====
abbrev S128 : Shape := ⟨1, ![128]⟩
abbrev S8x4096x512 : Shape := ⟨3, ![8, 4096, 512]⟩
abbrev S8x4096x1024 : Shape := ⟨3, ![8, 4096, 1024]⟩
abbrev S1x2048x1024 : Shape := ⟨3, ![1, 2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S128, .i32⟩
  | .hbm, ⟨1, _⟩ => ⟨S8x4096x512, .f32⟩
  | .hbm, ⟨2, _⟩ => ⟨S8x4096x1024, .f32⟩
  | .hbm, ⟨3, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x4096x1024.size a
  hwx0_1 : ∀ i : grid0.Coords, EltTy.bits .f32 = 32 ∨ (Rect.block (s := S8x4096x1024) S1x2048x1024.size (cc0_transform_1 i) (hinb0_1 i)).WholeWords (EltTy.packing .f32)

variable [Facts₀]

abbrev win0_0 : Pipeline.Window sig grid0 :=
  Pipeline.Window.ofSpec (Memref.whole main_arg2) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S128 : Shape := ⟨1, ![128]⟩
abbrev S8x4096x512 : Shape := ⟨3, ![8, 4096, 512]⟩
abbrev S8x4096x1024 : Shape := ⟨3, ![8, 4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S128, .i32⟩
  | .hbm, ⟨1, _⟩ => ⟨S8x4096x512, .f32⟩
  | .hbm, ⟨2, _⟩ => ⟨S8x4096x1024, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.CopyValue.lean ====
/-
  What the copy kernel leaves in its result array.

  The tree `[8, 4096, 1024]` is cut into sixteen blocks `[1, 2048, 1024]`, one per grid point `(b, r)`:
  batch entry `b`, rows `2048·r … 2048·r + 2047`, all columns.  The body loads the input block whole and stores it
  whole into the output block, so the point writes back exactly its block of the tree.  The array the blocks are
  written back to is, when the region is entered, already a copy of the tree (the result is aliased to the operand,
  and the copy of the operand into the result's array is the one operation of the program before the region).
  Hence at EVERY index of the final array — one that some block covers, or one that none does — the array reads
  the tree there: no covering argument is needed, both branches of the piecewise description agree.
-/
import proofs.«172858_j20117626814733_2_alg».proof.Proof.Gen.KernelIdeal.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one rectangle, the whole block, starts at the origin. -/
theorem origin3 : (![0, 0, 0] : Fin 3 → Nat) = fun _ => 0 := funext fun a => by fin_cases a <;> rfl

/-- The tree, as launched, on core `c`. -/
abbrev tree (c : Dev nD) : S8x4096x1024.Idx → Elt F .f32 := m ((c : Thread nD τ).loc main_arg2)

/-- When the region is entered the result's array is a copy of the tree: the one operation before the region
    is that copy. -/
theorem entry_copy (c : Dev nD) : (V m c main_v0 : S8x4096x1024.Idx → Elt F .f32) = tree m c := by
  dsimp only [Gen.V, Gen.hostOps0]; after_results; rfl

/-- The input window and the output window have the same block index at every grid point, on each axis. -/
theorem same_block : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3) :=
  (by decide +kernel : ∀ t : Fin grid0.N, _)

/-- What grid point `t` writes back is its block of the tree: the body stores the loaded input block unchanged, and the
    input block sits in the tree where the output block sits in the result. -/
theorem flushed_eq (c : Dev nD) (t : Fin cfg0.N) :
    (dats m 0 c).flushed 1 t = ((cfg0.win 1).blk t).view.read (Elt F) (tree m c) := by
  rw [Value.flushed1]
  unfold out0_1
  rw [View.canon_unit_zero origin3]
  simp only [View.ld_unit_zero (S := S1x2048x1024) origin3]
  obtain ⟨e0, e1, e2⟩ := same_block t
  funext j
  show V m c main_arg2 (((cfg0.win 0).blk t).view.emb j) = tree m c (((cfg0.win 1).blk t).view.emb j)
  rw [V_main_arg2]
  have h : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 2048 + 1 * (j 1).val = win0_1.index t (1 : Fin 3) * 2048 + 1 * (j 1).val; omega
    | ⟨2, _⟩ => show win0_0.index t (2 : Fin 3) * 1024 + 1 * (j 2).val = win0_1.index t (2 : Fin 3) * 1024 + 1 * (j 2).val; omega
  rw [h]

/-- The result array after the run is the tree: where a block covers an index it holds that block of the tree, and where
    none does it holds what it held at region entry, the copy of the tree. -/
theorem final (c : Dev nD) : (dats m 0 c).arrAt 1 cfg0.N = tree m c := by
  funext i
  rw [(dats m 0 c).arrAt_eq_piecewise 1 (tree m c) (fun t _ => flushed_eq m c t) i, A_eq]
  have e : V m c (Pipeline.arrRef spec0 1) i = tree m c i := congrFun (entry_copy m c) i
  rw [e]
  split <;> rfl

/-- The kernel's run: every weakly fair execution terminates with the result array holding the tree and the
    three arguments unchanged. -/
theorem run : θ_run defs (onTc (τ := τ) (main (F := F))) ⟨m, fun _ => 0, ρ⟩ fun r => ∀ c : Dev nD,
      r.2.mem ((c : Thread nD τ).loc main_v0) = tree m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.CopyValue

end
-- ==== Proof.RefRun.lean ====
/-
  The reference's run.  The reference returns its third argument, the tree, as it is: its program has no
  operation at all.  So its run is the run of the empty line of operations: it terminates, and every array ends as it
  was launched.
-/
import proofs.«172858_j20117626814733_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- The program is the empty line of operations. -/
theorem main_eq (c : Dev nD) : main (F := F) c = seq [] := rfl

/-- Every weakly fair execution of the reference terminates, and every array ends as launched. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = m ((c.tc : Thread nD τ).loc b) :=
  (θ_run defs _ _).mono (fun _ h c b => (h c b).trans rfl)
    (run_seq scopedRefs_eq scopedSems_eq defs main (fun _ => []) main_eq (fun _ => trivial) m ρ)

end Cert.ReferenceIdeal.RefRun

end
-- ==== Proof.lean ====
/-
  The kernel copies the tree `[8, 4096, 1024]` block by block — sixteen blocks `[1, 2048, 1024]`, each loaded whole and
  stored whole — into a result array that starts as a copy of the tree; the reference returns the tree itself.
  Both therefore end with the tree as their result, at every index, over the extended reals as over any values: no
  arithmetic is done, so the precondition (finite inputs) is never used.

  The three frames: the kernel's two are the generated frame runs; the reference has no operation, so its run is the
  run of the empty program, which leaves every array as launched (RefRun).  The idealization rewrote nothing, so
  `preserves` is `True`.  For `algebraic`: the kernel's result array after the run is the tree (CopyValue: each point
  writes back its block of the tree, and an index no block covered would still hold the entry copy of the tree),
  the reference's result is its own third argument unchanged, and the two programs' arguments agree.
-/
import proofs.«172858_j20117626814733_2_alg».proof.Defs
import proofs.«172858_j20117626814733_2_alg».proof.Proof.Gen.Kernel
import proofs.«172858_j20117626814733_2_alg».proof.Proof.Gen.Kernel.Skeleton
import proofs.«172858_j20117626814733_2_alg».proof.Proof.Gen.Kernel.Launch
import proofs.«172858_j20117626814733_2_alg».proof.Proof.Gen.Kernel.Points
import proofs.«172858_j20117626814733_2_alg».proof.Proof.Gen.Kernel.Frame
import proofs.«172858_j20117626814733_2_alg».proof.Proof.Gen.KernelIdeal
import proofs.«172858_j20117626814733_2_alg».proof.Proof.Gen.KernelIdeal.Skeleton
import proofs.«172858_j20117626814733_2_alg».proof.Proof.Gen.KernelIdeal.Launch
import proofs.«172858_j20117626814733_2_alg».proof.Proof.Gen.KernelIdeal.Points
import proofs.«172858_j20117626814733_2_alg».proof.Proof.Gen.KernelIdeal.Frame
import proofs.«172858_j20117626814733_2_alg».proof.Proof.Gen.ReferenceIdeal
import proofs.«172858_j20117626814733_2_alg».proof.Proof.Gen.Pre_finite_inputs
import proofs.«172858_j20117626814733_2_alg».proof.Proof.CopyValue
import proofs.«172858_j20117626814733_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference, having no operation, runs and leaves every array unchanged. -/
theorem frame_reference : Cert.frame_ReferenceIdeal := fun m ρ _ =>
  (θ_run Cert.ReferenceIdeal.defs _ _).mono (fun _ h c => ⟨h c _, h c _, h c _⟩)
    (Cert.ReferenceIdeal.RefRun.run (F := Ideal) m ρ)

/-- Both programs end with the tree as their result: the kernel's result array holds it block by block, the
    reference's result is the tree argument itself, and the arguments agree. -/
theorem algebraic : Cert.algebraic_KernelIdeal_ReferenceIdeal := by
  intro m ρ m' ρ' _ hagree
  refine ⟨fun c => Cert.KernelIdeal.CopyValue.tree m c, Cert.KernelIdeal.CopyValue.run (F := Ideal) m ρ, ?_⟩
  exact (θ_run Cert.ReferenceIdeal.defs _ _).mono
    (fun _ h c => ⟨(h c _).trans (hagree c).2.2, h c _, h c _, h c _⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
